-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) (main_arg1 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Kernel.lean ====
abbrev S256x4096 : Shape := ⟨2, ![256, 4096]⟩
abbrev S256x1 : Shape := ⟨2, ![256, 1]⟩
abbrev S128x4096 : Shape := ⟨2, ![128, 4096]⟩
abbrev S128x1 : Shape := ⟨2, ![128, 1]⟩
abbrev S128x256 : Shape := ⟨2, ![128, 256]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S128 : Shape := ⟨1, ![128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x1, .f32⟩
  | .hbm, ⟨3, _⟩ => ⟨S256, .f32⟩
  | .local _ .vmem, ⟨0, _⟩ => ⟨S128x4096, .f32⟩
  | .local _ .vmem, ⟨1, _⟩ => ⟨S128x4096, .f32⟩
  | .local _ .vmem, ⟨2, _⟩ => ⟨S256x4096, .f32⟩
  | .local _ .vmem, ⟨3, _⟩ => ⟨S128x4096, .f32⟩
  | .local _ .vmem, ⟨4, _⟩ => ⟨S128x4096, .f32⟩
  | .local _ .vmem, ⟨5, _⟩ => ⟨S256x4096, .f32⟩
  | .local _ .vmem, ⟨6, _⟩ => ⟨S128x1, .f32⟩
  | .local _ .vmem, ⟨7, _⟩ => ⟨S128x1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  v14
def k0_off1 (k0_t1 : Fin k0_t1_loop.trips) : Fin 2 → Nat :=
  let c0_7 : Index := 0#32
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v16 : Index := Scalar.indexCast v15
  ![0, v16.toNat]
def k0_off2 (k0_t1 : Fin k0_t1_loop.trips) : Fin 2 → Nat :=
  let c0_9 : Index := 0#32
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v20 : Index := Scalar.indexCast v15
  ![0, v20.toNat]
def k0_off3 (k0_t1 : Fin k0_t1_loop.trips) : Fin 2 → Nat :=
  let c128 : Index := 128#32
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v38 : Index := Scalar.indexCast v15
  ![128, v38.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  concatenates_S128x128_S128x128_S128x256_d1 : Shape.Concatenates [S128x128, S128x128] S128x256 1
  reduces_S128x256_S128 : S128x256.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S256x1_S256 : S256x1.ShapeCasts S256
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x4096.size a
  k0_off2_inb : ∀ k0_t1 : Fin k0_t1_loop.trips, ∀ a, (k0_off2 k0_t1) a + S128x128.size a ≤ S256x4096.size a
  k0_off3_inb : ∀ k0_t1 : Fin k0_t1_loop.trips, ∀ a, (k0_off3 k0_t1) a + S128x128.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S256x4096.size a
  hwx0_0 : ∀ i : grid0.Coords, EltTy.bits .f32 = 32 ∨ (Rect.block (s := S256x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S256x4096.size a
  hwx0_2 : ∀ i : grid0.Coords, EltTy.bits .f32 = 32 ∨ (Rect.block (s := S256x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .f32 = 32 ∨ (Rect.block (s := S256x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S256x1.size a
  hwx0_4 : ∀ i : grid0.Coords, EltTy.bits .f32 = 32 ∨ (Rect.block (s := S256x1) S128x1.size (cc0_transform_4 i) (hinb0_4 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4096 : Shape := ⟨2, ![256, 4096]⟩
abbrev S256x1x4096 : Shape := ⟨3, ![256, 1, 4096]⟩
abbrev S1x256x4096 : Shape := ⟨3, ![1, 256, 4096]⟩
abbrev S256x256x4096 : Shape := ⟨3, ![256, 256, 4096]⟩
abbrev S_ : Shape := ⟨0, ![]⟩
abbrev S256x256 : Shape := ⟨2, ![256, 256]⟩
abbrev S256 : Shape := ⟨1, ![256]⟩

abbrev nBuf : Space → Nat
  | .hbm => 28
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x1x4096, .f32⟩
  | .hbm, ⟨3, _⟩ => ⟨S1x256x4096, .f32⟩
  | .hbm, ⟨4, _⟩ => ⟨S256x256x4096, .f32⟩
  | .hbm, ⟨5, _⟩ => ⟨S256x256x4096, .f32⟩
  | .hbm, ⟨6, _⟩ => ⟨S256x256x4096, .f32⟩
  | .hbm, ⟨7, _⟩ => ⟨S256x256x4096, .f32⟩
  | .hbm, ⟨8, _⟩ => ⟨S_, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x1x4096, .f32⟩
  | .hbm, ⟨14, _⟩ => ⟨S1x256x4096, .f32⟩
  | .hbm, ⟨15, _⟩ => ⟨S256x256x4096, .f32⟩
  | .hbm, ⟨16, _⟩ => ⟨S256x256x4096, .f32⟩
  | .hbm, ⟨17, _⟩ => ⟨S256x256x4096, .f32⟩
  | .hbm, ⟨18, _⟩ => ⟨S256x256x4096, .f32⟩
  | .hbm, ⟨19, _⟩ => ⟨S_, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S256x4096_S256x1x4096_0_2 : S256x4096.BroadcastsInDim S256x1x4096 (![0, 2] : Fin 2 → Fin S256x1x4096.rank)
  bcast_S256x4096_S1x256x4096_1_2 : S256x4096.BroadcastsInDim S1x256x4096 (![1, 2] : Fin 2 → Fin S1x256x4096.rank)
  bcast_S256x1x4096_S256x256x4096_0_1_2 : S256x1x4096.BroadcastsInDim S256x256x4096 (![0, 1, 2] : Fin 3 → Fin S256x256x4096.rank)
  bcast_S1x256x4096_S256x256x4096_0_1_2 : S1x256x4096.BroadcastsInDim S256x256x4096 (![0, 1, 2] : Fin 3 → Fin S256x256x4096.rank)
  reducesTo_S256x256x4096_S256x256_d2 : S256x256x4096.ReducesTo [2] S256x256
  h_S_ : 0 < S_.numel
  bcast_S_S256x256 : S_.BroadcastsInDim S256x256 (![] : Fin 0 → Fin S256x256.rank)
  reducesTo_S256x256_S256_d1 : S256x256.ReducesTo [1] S256

variable [Facts₀]

class Facts : Prop extends Facts₀ where

variable [Facts]
-- ==== Proof.KernelBody.lean ====
import proofs.«158249_j45664092291537_1_alg».proof.Proof.Gen.Kernel.Launch
import proofs.«158249_j45664092291537_1_alg».proof.Proof.Gen.Kernel.Skeleton
import proofs.«158249_j45664092291537_1_alg».proof.Proof.Gen.Kernel.Loops
import proofs.«158249_j45664092291537_1_alg».proof.Proof.Gen.Kernel.Points
import Idealize.ShloMosaic.Lib.Pipeline.FrameBody
import Idealize.ShloMosaic.Lib.Ring
import Idealize.ShloMosaic.Lib.Tactic

set_option maxRecDepth 16384

noncomputable section

/-! The body of the one kernel region on whole staging buffers, the proof data of its pipeline, and the body
    obligation.  Windows 0 and 1 read the first argument (a 128-row block per grid point, and the whole array), windows
    2 and 3 the second argument likewise; window 4 is the result's 128-row block.  The body reads its four input
    buffers, accumulates the two pairwise absolute-difference sums over 32 column chunks, and stores one column. -/
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (no host operation precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)

/-- One staging buffer of the result window, through which its contents are stated. -/
abbrev VO : View sig .tc .vmem S128x1 .f32 := (Memref.whole cc0_stg4_0 : Memref sig .tc .vmem S128x1 .f32).view

set_option maxHeartbeats 1000000 in
/-- The body on whole staging memrefs, the four inputs' at contents `x1 … x4` and the result's at anything: it runs to
    the continuation holding the inputs' as they were and the result's buffer with the pieces `L5` written — the pieces
    are what the run of the body's skeleton finds (the loop passed by its invariant: the carried pair before each trip). -/
noncomputable def bodyRun (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) :
    { L5 : List (View.Piece (Elt F) S128x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

/-- The run's pieces for the result tile its block (one store of the whole block), so they cover it. -/
theorem cover5 (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) (y : S128x1.Idx) :
    ∃ pc ∈ (bodyRun c i arg1 harg1 arg2 harg2 arg3 harg3 arg4 harg4 arg5 harg5 x1 x2 x3 x4).1, y ∈ pc.1.set :=
  View.cover_of_tiledL (bodyRun c i arg1 harg1 arg2 harg2 arg3 harg3 arg4 harg4 arg5 harg5 x1 x2 x3 x4).1 S128x1.size (by sl_kernel_rfl) y

/-- What the run leaves in the result's staging buffer: its pieces read back over junk. -/
def out5 (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) : Vec F S128x1 .f32 :=
  VO.read (Elt F) (VO.writes (Elt F) VO.junk (bodyRun c i arg1 harg1 arg2 harg2 arg3 harg3 arg4 harg4 arg5 harg5 x1 x2 x3 x4).1)

/-- What the result's staging buffer holds after the body at point `t`. -/
def outAt (c : Dev nD) (t : Fin cfg0.N) : Vec F S128x1 .f32 :=
  out5 c (grid0.coords t) (ms0 t) (hs0 t) (ms1 t) (hs1 t) (ms2 t) (hs2 t) (ms3 t) (hs3 t) (ms4 t) (hs4 t)
    (iblk m c 0 t) (iblk m c 1 t) (iblk m c 2 t) (iblk m c 3 t)

/-- The proof data of the pipeline on core `c`: the arrays as the region finds them; after the body each input's buffer
    at its block and the result's at `outAt`; between points nothing but the scoped rest; nothing owed; each argument's
    full share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- An input's current staging buffer holds its block at every point, fetched there or not (unfetched, the block index
    has not moved): the window uncut and never idle. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.LibSharedFrameTail.lean ====
/-
  The frame run of a pipeline kernel whose input windows may SHARE an array, for an @main that goes on after the
  region with straight lines of host operations.

  One region on a static grid; the kernel has no semaphore, transfer or scratch of its own.  Several input windows may
  read one array, so the arrays are not pairwise distinct and the region's exit holds each window's array at that
  window's share.  The lines after the region run within a set `S` of whole buffers at the full share: the certificate
  says how the exit's holdings — the windows' arrays at what the proof data compute, the bypassing buffers at their
  entry contents — yield `S` at a valuation `W` beside a remainder `R` the lines do not touch (`hexit`), and how `S`
  at the lines' result and `R` give the arrays back, with the bypassing buffers at the contents `V'` (`hback`).  Under
  those two entailments, the entry split of the shared arrays, the body obligation and the shape of @main, every weakly
  fair execution terminates without fault, every array of the pipeline ends at what the proof data compute and every
  other unscoped buffer at `V'`.
-/
import Idealize.ShloMosaic.Lib.Pipeline.FrameSuffix

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN WITH SHARED INPUT ARRAYS AND LINES AFTER THE REGION.  `hsplit`: how the buffers behind the arrays
    make the proof data's arrays at entry; `hΦ`: the proof data carry nothing between points but the core's scoped
    buffers that are no staging buffer; `hexit` / `hback`: the lines' buffers `S` out of, and back into, the region's
    exit holdings.  Concludes `FramePost` at the contents `V'` after the lines. -/
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V V' : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c)
    (S : Finset (DevRef τ sig)) (W : Dev nD → Valuation τ sig Val) (R : Dev nD → sProp 𝕄)
    (hsub : ∀ ops ∈ opss, ∀ op ∈ ops, op.bufs ⊆ S) (hfresh : ∀ ops ∈ opss, ∀ op ∈ ops, op.fresh = ∅)
    (hexit : ∀ c, iprop((dats p c).arrays ((dats p c).arrAt · (cfgs p).N)
          ∗ unscopedRest (Ix := Unit) (Name := ℕ) (U := UR sig nD τ) (Lvl := ℕ) (cfgs p).spec c (V c))
        ⊢ iprop((StableHlo.held (c.tc : Thread nD τ) S (W c) : sProp 𝕄) ∗ R c))
    (hback : ∀ c, iprop((StableHlo.held (c.tc : Thread nD τ) S (StableHlo.after opss.flatten (W c)) : sProp 𝕄) ∗ R c)
        ⊢ iprop((dats p c).arrays ((dats p c).arrAt · (cfgs p).N)
          ∗ unscopedRest (Ix := Unit) (Name := ℕ) (U := UR sig nD τ) (Lvl := ℕ) (cfgs p).spec c (V' c))) :
    θ_run (Pipeline.defs (fun q => Cfg.toPCfg (Val := Val) (cfgs q)) defs₀) (onTc main) (s₀ m g) (FramePost cfgs dats p V') := by
  classical
  exact θ_run_region_noSem_pf_tail (fun q => (cfgs q).toPCfg) (fun q => (cfgs q).toPCfg_adm) dats () hinj p hw (PreFacts.none _) emb₁
    defs₀ 𝒱₀ m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c (V' c))
    (hX := fun c => by
      rw [unscopedRestP_none]
      iintro HU
      isplitr; · iempintro
      iexact HU)
    (hin := fun c => by
      rw [hΦ]
      iintro ⟨-, -, Hr⟩
      iexact Hr)
    (hout := fun c => by
      rw [hΦ]
      iintro Hr
      isplitr; · iempintro
      iexact Hr)
    (htail := fun c Q' => (sep_mono .rfl (sep_mono .rfl (hexit c))).trans (by
      rw [← List.append_nil (opss.map StableHlo.seq)]
      iintro ⟨Hk, Hb, Hh, HR⟩
      iapply (wp_seqs_then (fun q => (cfgs q).toPCfg (Val := Val)) defs₀ 𝒱₀ c S [] opss hsub hfresh (W c)) $$ [Hb Hh]
      · isplitl [Hb]; · iexact Hb
        iexact Hh
      iintro ⟨-, Hh⟩
      rw [chain_nil, wp_pure]
      imodintro
      iapply Hk
      iapply (hback c)
      isplitl [Hh]; · iexact Hh
      iexact HR))
    (QY := fun c s => ∀ b ∈ restRefs sig (cfgs p).spec, s.mem ((c.tc : Thread nD τ).loc b) = V' c b)
    (hY := fun c s' => by
      iintro ⟨-, HU, HSI⟩
      unfold unscopedRest
      imodintro
      iapply (pointsTo_read_all (restRefs sig (cfgs p).spec) (fun b => (c.tc : Thread nD τ).loc b) (V' c) s')
      isplitl [HU] <;> iassumption)
    (hQ := fun s h c => ⟨(h c).1, (h c).2.2⟩)

/-- info: 'Idealize.ShloMosaic.Pipeline.θ_run_frame_shared_around' depends on axioms: [propext, Classical.choice, Quot.sound] -/
#guard_msgs in #print axioms θ_run_frame_shared_around

end Idealize.ShloMosaic.Pipeline

end
-- ==== Proof.KernelRun.lean ====
import proofs.«158249_j45664092291537_1_alg».proof.Proof.KernelBody
import proofs.«158249_j45664092291537_1_alg».proof.Proof.LibSharedFrameTail
import Idealize.ShloMosaic.Lib.StableHlo.Run

set_option maxRecDepth 16384

noncomputable section

/-! The body obligation at every grid point, the shape of @main (the region, then one reshape of the result column into
    the result vector), the shared arguments' shares at the region's entry and exit, and the run: every weakly fair
    execution terminates without fault, the arguments end unchanged, the result column ends at what the write-backs
    leave, and the result vector at its reshape. -/
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the inputs' buffers hold their blocks, so the run applies; the invariant passes through
    unread; the core owes nothing throughout; the result's buffer ends at the run's pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outAt
  unfold out5
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main: the region, then the reshape -/

theorem hmain (𝒱₀ : Variants) :
    Pipeline.HMainK (Ix := Unit) (Name := ℕ) (U := UR sig nD τ) (Lvl := ℕ) cfgs 0 defs₀ 𝒱₀ m (main (F := F)) (V m)
      (fun _ => Pipeline.chain ([hostOps1 (F := F)].map StableHlo.seq)) :=
  Pipeline.hmain_around cfgs 0 defs₀ 𝒱₀ m main [] [hostOps1] (by trivial) (by trivial) (fun c => (main_chain c).trans rfl)

/-! ## The arrays at the region's entry and exit -/

/-- The distinct buffers behind the windows' arrays, one by one: the two arguments and the result column. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) := by
  unfold Pipeline.arrBufs
  exact bigSep_eq_bigSepL_of_eq [main_arg0, main_arg1, main_v0] (by decide) (by decide) _

/-- The windows' arrays at their shares, one by one: each argument twice, at the two halves of its full share. -/
theorem arrays_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare.left} Fv 2) ∗ (((c : Thread nD τ).loc main_arg1) ↦{fullShare.right} Fv 3)
          ∗ (((c : Thread nD τ).loc main_v0) ↦{fullShare} Fv 4)) := by
  unfold Dat.arrays
  rw [bigSep_W0, (arr_whole0 0).set_eq_univ, (arr_whole0 2).set_eq_univ, (arr_whole0 4).set_eq_univ]
  rfl

/-- At the region's entry each argument's full share is dealt in halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hb, Hv⟩
  ihave Ha := (pointsTo_share (PosShare.mem_left_op_right fullShare)).1 $$ Ha
  ihave Hb := (pointsTo_share (PosShare.mem_left_op_right fullShare)).1 $$ Hb
  icases Ha with ⟨Ha1, Ha2⟩
  icases Hb with ⟨Hb1, Hb2⟩
  isplitl [Ha1]; · iexact Ha1
  isplitl [Ha2]; · iexact Ha2
  isplitl [Hb1]; · iexact Hb1
  isplitl [Hb2]; · iexact Hb2
  iexact Hv

/-! ## The reshape after the region -/

/-- The two buffers the reshape touches: the result column it reads and the result vector it writes. -/
abbrev S : Finset (DevRef τ sig) := {Proc.devRef .tc main_v0, Proc.devRef .tc main_v1}

/-- The core's buffers at the region's exit as the reshape finds them: the result column at what the write-backs left. -/
def W (c : Dev nD) : Valuation τ sig (Elt F) :=
  Function.update (fun b => m (c, b)) (Proc.devRef .tc main_v0) ((dats m 0 c).arrAt 4 cfg0.N)

/-- The core's buffers after the reshape. -/
def V' (c : Dev nD) (b : Ref sig .tc) : Buf (Elt F) ((c : Thread nD τ).loc b) :=
  StableHlo.after (hostOps1 (F := F)) (W m c) (Proc.devRef .tc b)

/-- The four input windows' holdings, which the reshape does not touch. -/
def Rr (c : Dev nD) : sProp 𝕄 :=
  iprop((((c : Thread nD τ).loc main_arg0) ↦{fullShare.left} (dats m 0 c).arrAt 0 cfg0.N)
    ∗ (((c : Thread nD τ).loc main_arg0) ↦{fullShare.right} (dats m 0 c).arrAt 1 cfg0.N)
    ∗ (((c : Thread nD τ).loc main_arg1) ↦{fullShare.left} (dats m 0 c).arrAt 2 cfg0.N)
    ∗ (((c : Thread nD τ).loc main_arg1) ↦{fullShare.right} (dats m 0 c).arrAt 3 cfg0.N))

theorem held_eq (c : Dev nD) (Wv : Valuation τ sig (Elt F)) :
    (StableHlo.held (c.tc : Thread nD τ) S Wv : sProp 𝕄)
      = iprop((((c : Thread nD τ).loc main_v0) ↦{fullShare} Wv (Proc.devRef .tc main_v0))
          ∗ (((c : Thread nD τ).loc main_v1) ↦{fullShare} Wv (Proc.devRef .tc main_v1))) := by
  unfold StableHlo.held
  exact bigSep_eq_bigSepL_of_eq [Proc.devRef .tc main_v0, Proc.devRef .tc main_v1] (by decide) (by decide) _

theorem W_v0 (c : Dev nD) : W m c (Proc.devRef .tc main_v0) = (dats m 0 c).arrAt 4 cfg0.N := Function.update_self ..
theorem W_v1 (c : Dev nD) : W m c (Proc.devRef .tc main_v1) = m (c, Proc.devRef .tc main_v1) :=
  Function.update_of_ne (by decide) ..

theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c.tc : Thread nD τ) S (W m c) : sProp 𝕄) ∗ Rr m c) := by
  rw [arrays_eq, unscopedRest0_eq, held_eq, W_v0, W_v1]
  unfold Rr
  iintro ⟨⟨Ha1, Ha2, Hb1, Hb2, Hv0⟩, Hv1⟩
  isplitl [Hv0 Hv1]
  · isplitl [Hv0]; · iexact Hv0
    iexact Hv1
  isplitl [Ha1]; · iexact Ha1
  isplitl [Ha2]; · iexact Ha2
  isplitl [Hb1]; · iexact Hb1
  iexact Hb2

theorem after_v0 (c : Dev nD) :
    StableHlo.after [hostOps1 (F := F)].flatten (W m c) (Proc.devRef .tc main_v0) = (dats m 0 c).arrAt 4 cfg0.N := by
  simp only [List.flatten_cons, List.flatten_nil, List.append_nil, hostOps1]
  after_results
  exact W_v0 m c

theorem hback (c : Dev nD) :
    iprop((StableHlo.held (c.tc : Thread nD τ) S (StableHlo.after [hostOps1 (F := F)].flatten (W m c)) : sProp 𝕄) ∗ Rr m c)
      ⊢ iprop((dats m 0 c).arrays ((dats m 0 c).arrAt · cfg0.N)
        ∗ Pipeline.unscopedRest (Ix := Unit) (Name := ℕ) (U := UR sig nD τ) (Lvl := ℕ) spec0 c (V' m c)) := by
  rw [arrays_eq, unscopedRest0_eq, held_eq, after_v0]
  unfold Rr
  iintro ⟨⟨Hv0, Hv1⟩, Ha1, Ha2, Hb1, Hb2⟩
  isplitr [Hv1]
  · isplitl [Ha1]; · iexact Ha1
    isplitl [Ha2]; · iexact Ha2
    isplitl [Hb1]; · iexact Hb1
    isplitl [Hb2]; · iexact Hb2
    iexact Hv0
  iexact Hv1

/-! ## The run -/

set_option backward.isDefEq.respectTransparency.types false in
/-- From any memory with zero counters every weakly fair execution of @main terminates, and every final state has each
    window's array at what the proof data compute and the result vector at the reshape of the result column. -/
theorem run_main : θ_run defs (onTc (τ := τ) (main (F := F))) (s₀ m ρ) (Pipeline.FramePost cfgs (dats m) 0 (V' m)) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V := V m) (V' := V' m) (opss := [hostOps1])
    (hmain := hmain m Variants.none) (hsplit := hsplit m) (hΦ := fun _ _ => rfl) (S := S) (W := W m) (R := Rr m)
    (hsub := fun ops hops op hop => by
      rw [List.mem_singleton] at hops; subst hops
      rw [hostOps1, List.mem_singleton] at hop; subst hop
      exact Finset.Subset.refl _)
    (hfresh := fun ops hops op hop => by
      rw [List.mem_singleton] at hops; subst hops
      rw [hostOps1, List.mem_singleton] at hop; subst hop
      rfl)
    (hexit := hexit m) (hback := hback m)

/-- The arguments end unchanged: an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2))⟩) (run_main m ρ)

end Cert.Kernel.Hand

end
-- ==== Proof.KernelIdealBody.lean ====
import proofs.«158249_j45664092291537_1_alg».proof.Proof.Gen.KernelIdeal.Launch
import proofs.«158249_j45664092291537_1_alg».proof.Proof.Gen.KernelIdeal.Skeleton
import proofs.«158249_j45664092291537_1_alg».proof.Proof.Gen.KernelIdeal.Loops
import proofs.«158249_j45664092291537_1_alg».proof.Proof.Gen.KernelIdeal.Points
import Idealize.ShloMosaic.Lib.Pipeline.FrameBody
import Idealize.ShloMosaic.Lib.Ring
import Idealize.ShloMosaic.Lib.Tactic

set_option maxRecDepth 16384

noncomputable section

/-! The body of the one kernel region on whole staging buffers, the proof data of its pipeline, and the body
    obligation.  Windows 0 and 1 read the first argument (a 128-row block per grid point, and the whole array), windows
    2 and 3 the second argument likewise; window 4 is the result's 128-row block.  The body reads its four input
    buffers, accumulates the two pairwise absolute-difference sums over 32 column chunks, and stores one column. -/
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (no host operation precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)

/-- One staging buffer of the result window, through which its contents are stated. -/
abbrev VO : View sig .tc .vmem S128x1 .f32 := (Memref.whole cc0_stg4_0 : Memref sig .tc .vmem S128x1 .f32).view

set_option maxHeartbeats 1000000 in
/-- The body on whole staging memrefs, the four inputs' at contents `x1 … x4` and the result's at anything: it runs to
    the continuation holding the inputs' as they were and the result's buffer with the pieces `L5` written — the pieces
    are what the run of the body's skeleton finds (the loop passed by its invariant: the carried pair before each trip). -/
noncomputable def bodyRun (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) :
    { L5 : List (View.Piece (Elt F) S128x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

/-- The run's pieces for the result tile its block (one store of the whole block), so they cover it. -/
theorem cover5 (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) (y : S128x1.Idx) :
    ∃ pc ∈ (bodyRun c i arg1 harg1 arg2 harg2 arg3 harg3 arg4 harg4 arg5 harg5 x1 x2 x3 x4).1, y ∈ pc.1.set :=
  View.cover_of_tiledL (bodyRun c i arg1 harg1 arg2 harg2 arg3 harg3 arg4 harg4 arg5 harg5 x1 x2 x3 x4).1 S128x1.size (by sl_kernel_rfl) y

/-- What the run leaves in the result's staging buffer: its pieces read back over junk. -/
def out5 (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) : Vec F S128x1 .f32 :=
  VO.read (Elt F) (VO.writes (Elt F) VO.junk (bodyRun c i arg1 harg1 arg2 harg2 arg3 harg3 arg4 harg4 arg5 harg5 x1 x2 x3 x4).1)

/-- What the result's staging buffer holds after the body at point `t`. -/
def outAt (c : Dev nD) (t : Fin cfg0.N) : Vec F S128x1 .f32 :=
  out5 c (grid0.coords t) (ms0 t) (hs0 t) (ms1 t) (hs1 t) (ms2 t) (hs2 t) (ms3 t) (hs3 t) (ms4 t) (hs4 t)
    (iblk m c 0 t) (iblk m c 1 t) (iblk m c 2 t) (iblk m c 3 t)

/-- The proof data of the pipeline on core `c`: the arrays as the region finds them; after the body each input's buffer
    at its block and the result's at `outAt`; between points nothing but the scoped rest; nothing owed; each argument's
    full share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- An input's current staging buffer holds its block at every point, fetched there or not (unfetched, the block index
    has not moved): the window uncut and never idle. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KernelIdealRun.lean ====
import proofs.«158249_j45664092291537_1_alg».proof.Proof.KernelIdealBody
import proofs.«158249_j45664092291537_1_alg».proof.Proof.LibSharedFrameTail
import Idealize.ShloMosaic.Lib.StableHlo.Run

set_option maxRecDepth 16384

noncomputable section

/-! The body obligation at every grid point, the shape of @main (the region, then one reshape of the result column into
    the result vector), the shared arguments' shares at the region's entry and exit, and the run: every weakly fair
    execution terminates without fault, the arguments end unchanged, the result column ends at what the write-backs
    leave, and the result vector at its reshape. -/
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the inputs' buffers hold their blocks, so the run applies; the invariant passes through
    unread; the core owes nothing throughout; the result's buffer ends at the run's pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outAt
  unfold out5
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main: the region, then the reshape -/

theorem hmain (𝒱₀ : Variants) :
    Pipeline.HMainK (Ix := Unit) (Name := ℕ) (U := UR sig nD τ) (Lvl := ℕ) cfgs 0 defs₀ 𝒱₀ m (main (F := F)) (V m)
      (fun _ => Pipeline.chain ([hostOps1 (F := F)].map StableHlo.seq)) :=
  Pipeline.hmain_around cfgs 0 defs₀ 𝒱₀ m main [] [hostOps1] (by trivial) (by trivial) (fun c => (main_chain c).trans rfl)

/-! ## The arrays at the region's entry and exit -/

/-- The distinct buffers behind the windows' arrays, one by one: the two arguments and the result column. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) := by
  unfold Pipeline.arrBufs
  exact bigSep_eq_bigSepL_of_eq [main_arg0, main_arg1, main_v0] (by decide) (by decide) _

/-- The windows' arrays at their shares, one by one: each argument twice, at the two halves of its full share. -/
theorem arrays_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare.left} Fv 2) ∗ (((c : Thread nD τ).loc main_arg1) ↦{fullShare.right} Fv 3)
          ∗ (((c : Thread nD τ).loc main_v0) ↦{fullShare} Fv 4)) := by
  unfold Dat.arrays
  rw [bigSep_W0, (arr_whole0 0).set_eq_univ, (arr_whole0 2).set_eq_univ, (arr_whole0 4).set_eq_univ]
  rfl

/-- At the region's entry each argument's full share is dealt in halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hb, Hv⟩
  ihave Ha := (pointsTo_share (PosShare.mem_left_op_right fullShare)).1 $$ Ha
  ihave Hb := (pointsTo_share (PosShare.mem_left_op_right fullShare)).1 $$ Hb
  icases Ha with ⟨Ha1, Ha2⟩
  icases Hb with ⟨Hb1, Hb2⟩
  isplitl [Ha1]; · iexact Ha1
  isplitl [Ha2]; · iexact Ha2
  isplitl [Hb1]; · iexact Hb1
  isplitl [Hb2]; · iexact Hb2
  iexact Hv

/-! ## The reshape after the region -/

/-- The two buffers the reshape touches: the result column it reads and the result vector it writes. -/
abbrev S : Finset (DevRef τ sig) := {Proc.devRef .tc main_v0, Proc.devRef .tc main_v1}

/-- The core's buffers at the region's exit as the reshape finds them: the result column at what the write-backs left. -/
def W (c : Dev nD) : Valuation τ sig (Elt F) :=
  Function.update (fun b => m (c, b)) (Proc.devRef .tc main_v0) ((dats m 0 c).arrAt 4 cfg0.N)

/-- The core's buffers after the reshape. -/
def V' (c : Dev nD) (b : Ref sig .tc) : Buf (Elt F) ((c : Thread nD τ).loc b) :=
  StableHlo.after (hostOps1 (F := F)) (W m c) (Proc.devRef .tc b)

/-- The four input windows' holdings, which the reshape does not touch. -/
def Rr (c : Dev nD) : sProp 𝕄 :=
  iprop((((c : Thread nD τ).loc main_arg0) ↦{fullShare.left} (dats m 0 c).arrAt 0 cfg0.N)
    ∗ (((c : Thread nD τ).loc main_arg0) ↦{fullShare.right} (dats m 0 c).arrAt 1 cfg0.N)
    ∗ (((c : Thread nD τ).loc main_arg1) ↦{fullShare.left} (dats m 0 c).arrAt 2 cfg0.N)
    ∗ (((c : Thread nD τ).loc main_arg1) ↦{fullShare.right} (dats m 0 c).arrAt 3 cfg0.N))

theorem held_eq (c : Dev nD) (Wv : Valuation τ sig (Elt F)) :
    (StableHlo.held (c.tc : Thread nD τ) S Wv : sProp 𝕄)
      = iprop((((c : Thread nD τ).loc main_v0) ↦{fullShare} Wv (Proc.devRef .tc main_v0))
          ∗ (((c : Thread nD τ).loc main_v1) ↦{fullShare} Wv (Proc.devRef .tc main_v1))) := by
  unfold StableHlo.held
  exact bigSep_eq_bigSepL_of_eq [Proc.devRef .tc main_v0, Proc.devRef .tc main_v1] (by decide) (by decide) _

theorem W_v0 (c : Dev nD) : W m c (Proc.devRef .tc main_v0) = (dats m 0 c).arrAt 4 cfg0.N := Function.update_self ..
theorem W_v1 (c : Dev nD) : W m c (Proc.devRef .tc main_v1) = m (c, Proc.devRef .tc main_v1) :=
  Function.update_of_ne (by decide) ..

theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c.tc : Thread nD τ) S (W m c) : sProp 𝕄) ∗ Rr m c) := by
  rw [arrays_eq, unscopedRest0_eq, held_eq, W_v0, W_v1]
  unfold Rr
  iintro ⟨⟨Ha1, Ha2, Hb1, Hb2, Hv0⟩, Hv1⟩
  isplitl [Hv0 Hv1]
  · isplitl [Hv0]; · iexact Hv0
    iexact Hv1
  isplitl [Ha1]; · iexact Ha1
  isplitl [Ha2]; · iexact Ha2
  isplitl [Hb1]; · iexact Hb1
  iexact Hb2

theorem after_v0 (c : Dev nD) :
    StableHlo.after [hostOps1 (F := F)].flatten (W m c) (Proc.devRef .tc main_v0) = (dats m 0 c).arrAt 4 cfg0.N := by
  simp only [List.flatten_cons, List.flatten_nil, List.append_nil, hostOps1]
  after_results
  exact W_v0 m c

theorem hback (c : Dev nD) :
    iprop((StableHlo.held (c.tc : Thread nD τ) S (StableHlo.after [hostOps1 (F := F)].flatten (W m c)) : sProp 𝕄) ∗ Rr m c)
      ⊢ iprop((dats m 0 c).arrays ((dats m 0 c).arrAt · cfg0.N)
        ∗ Pipeline.unscopedRest (Ix := Unit) (Name := ℕ) (U := UR sig nD τ) (Lvl := ℕ) spec0 c (V' m c)) := by
  rw [arrays_eq, unscopedRest0_eq, held_eq, after_v0]
  unfold Rr
  iintro ⟨⟨Hv0, Hv1⟩, Ha1, Ha2, Hb1, Hb2⟩
  isplitr [Hv1]
  · isplitl [Ha1]; · iexact Ha1
    isplitl [Ha2]; · iexact Ha2
    isplitl [Hb1]; · iexact Hb1
    isplitl [Hb2]; · iexact Hb2
    iexact Hv0
  iexact Hv1

/-! ## The run -/

set_option backward.isDefEq.respectTransparency.types false in
/-- From any memory with zero counters every weakly fair execution of @main terminates, and every final state has each
    window's array at what the proof data compute and the result vector at the reshape of the result column. -/
theorem run_main : θ_run defs (onTc (τ := τ) (main (F := F))) (s₀ m ρ) (Pipeline.FramePost cfgs (dats m) 0 (V' m)) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V := V m) (V' := V' m) (opss := [hostOps1])
    (hmain := hmain m Variants.none) (hsplit := hsplit m) (hΦ := fun _ _ => rfl) (S := S) (W := W m) (R := Rr m)
    (hsub := fun ops hops op hop => by
      rw [List.mem_singleton] at hops; subst hops
      rw [hostOps1, List.mem_singleton] at hop; subst hop
      exact Finset.Subset.refl _)
    (hfresh := fun ops hops op hop => by
      rw [List.mem_singleton] at hops; subst hops
      rw [hostOps1, List.mem_singleton] at hop; subst hop
      rfl)
    (hexit := hexit m) (hback := hback m)

/-- The arguments end unchanged: an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2))⟩) (run_main m ρ)

end Cert.KernelIdeal.Hand

end
-- ==== Proof.LibBlockSum.lean ====
/-
  A sum over a·b rows taken block by block.

  The rows 0 … a·b - 1 fall into a consecutive blocks of b rows: block t holds the rows b·t + p for p < b.  Every row is
  b·t + p for exactly one pair (t, p) with t < a and p < b, so summing block by block — the blocks counted by a natural
  number below a — is summing over all the rows.
-/
import Mathlib.Algebra.BigOperators.Fin
import Mathlib.Algebra.BigOperators.Group.Finset.Basic
import Mathlib.Logic.Equiv.Fin.Basic
import Mathlib.Tactic.Ring

namespace BlockSum

/-- Row p of block t lies below a·b. -/
theorem block_lt {a b t : ℕ} (h : t < a) (p : Fin b) : b * t + p.val < a * b := by
  have hp := p.isLt
  calc b * t + p.val < b * t + b := by omega
    _ = b * (t + 1) := by ring
    _ ≤ b * a := Nat.mul_le_mul_left b h
    _ = a * b := Nat.mul_comm b a

/-- The sum over the blocks of the sums within each block is the sum over all the rows. -/
theorem sum_blocks {M : Type*} [AddCommMonoid M] (a b : ℕ) (g : Fin (a * b) → M) :
    ∑ t ∈ Finset.range a, (if h : t < a then ∑ p : Fin b, g ⟨b * t + p.val, block_lt h p⟩ else 0)
      = ∑ R : Fin (a * b), g R := by
  rw [Finset.sum_range]
  calc ∑ i : Fin a, (if h : (i : ℕ) < a then ∑ p : Fin b, g ⟨b * (i : ℕ) + p.val, block_lt h p⟩ else 0)
      = ∑ i : Fin a, ∑ p : Fin b, g ⟨b * (i : ℕ) + p.val, block_lt i.isLt p⟩ :=
        Finset.sum_congr rfl fun i _ => dif_pos i.isLt
    _ = ∑ x : Fin a × Fin b, g ⟨b * (x.1 : ℕ) + x.2.val, block_lt x.1.isLt x.2⟩ :=
        (Fintype.sum_prod_type' fun (i : Fin a) (p : Fin b) => g ⟨b * (i : ℕ) + p.val, block_lt i.isLt p⟩).symm
    _ = ∑ R : Fin (a * b), g R :=
        Fintype.sum_equiv finProdFinEquiv _ _ fun x => congrArg g (Fin.ext (by
          show b * (x.1 : ℕ) + x.2.val = (finProdFinEquiv x : ℕ)
          rw [finProdFinEquiv_apply_val]
          exact Nat.add_comm _ _))

/-- Eight blocks of 1024 rows are the 8192 rows. -/
theorem sum_blocks_8_1024 {M : Type*} [AddCommMonoid M] (g : Fin 8192 → M) :
    ∑ t ∈ Finset.range 8, (if h : t < 8 then ∑ p : Fin 1024, g ⟨1024 * t + p.val, by omega⟩ else 0)
      = ∑ R : Fin 8192, g R :=
  sum_blocks 8 1024 g

end BlockSum
-- ==== Proof.Spec.lean ====
import Idealize.ShloMosaic.PureOps.Ideal
import Idealize.ShloMosaic.PureOps.Ideal.Laws
import proofs.«158249_j45664092291537_1_alg».proof.Proof.LibBlockSum

noncomputable section

/-! The mathematics of the pairwise mean-L1 product loss on the extended reals, over rows read as functions of the
    column.  The distance of two rows is the sum over the 4096 columns of the absolute differences; the kernel adds it
    up 128 columns at a time over 32 trips from zero, which is the same sum regrouped (addition on the extended reals is
    commutative and associative, infinities included).  The reference divides each distance by 4096 and the kernel
    multiplies it by 2⁻¹²: on every extended real these are one operation.  So both results are
    `-(Σ_j (d_x(r,j)/4096) · (d_y(r,j)/4096))`. -/
namespace Cert.Spec

open Idealize.ShloMosaic

/-- The word `0x45800000` denotes the real 4096. -/
theorem ofBits_4096 : Ideal.ofBits .f32 0x45800000#32 = ((4096 : ℝ) : EReal) := by
  simp [Ideal.ofBits, Ideal.ieee, -EReal.coe_mul]; norm_num

/-- The word `0x39800000` denotes the real 1/4096. -/
theorem ofBits_inv4096 : Ideal.ofBits .f32 0x39800000#32 = ((1 / 4096 : ℝ) : EReal) := by
  simp [Ideal.ofBits, Ideal.ieee, -EReal.coe_mul]; norm_num

/-- Division by 4096 is the product with 1/4096, on every extended real. -/
theorem div_4096 (a : EReal) : Ideal.div a (Ideal.ofBits .f32 0x45800000#32) = a * Ideal.ofBits .f32 0x39800000#32 := by
  rw [ofBits_4096, ofBits_inv4096, Ideal.div_coe (by norm_num : (4096 : ℝ) ≠ 0)]

/-- The absolute value, as the programs apply it. -/
def ab (u : EReal) : EReal := FloatOps.absf (F := Ideal) (φ := .f32) u

/-- The L1 distance of two rows. -/
def dist (u v : Fin 4096 → EReal) : EReal := ∑ K : Fin 4096, ab (u K - v K)

/-- Its part over columns `128 c … 128 c + 127`. -/
def chunk (u v : Fin 4096 → EReal) (c : ℕ) (hc : c < 32) : EReal :=
  ∑ l : Fin 128, ab (u ⟨128 * c + l.val, by have := l.isLt; omega⟩ - v ⟨128 * c + l.val, by have := l.isLt; omega⟩)

/-- The parts added up one after the other from zero, the first `n` of them. -/
def accTo (u v : Fin 4096 → EReal) : ℕ → EReal
  | 0 => Ideal.ofBits .f32 0x00000000#32
  | n + 1 => if h : n < 32 then accTo u v n + chunk u v n h else accTo u v n

theorem accTo_succ (u v : Fin 4096 → EReal) (n : ℕ) (h : n < 32) : accTo u v (n + 1) = accTo u v n + chunk u v n h := by
  rw [accTo, dif_pos h]

theorem accTo_eq_sum (u v : Fin 4096 → EReal) : ∀ n, n ≤ 32 →
    accTo u v n = ∑ t ∈ Finset.range n, (if h : t < 32 then chunk u v t h else 0)
  | 0, _ => by rw [accTo, Ideal.ofBits_zero_f32, Finset.range_zero, Finset.sum_empty]
  | n + 1, hn => by
    have h : n < 32 := by omega
    rw [accTo_succ u v n h, accTo_eq_sum u v n (by omega), Finset.sum_range_succ, dif_pos h]

/-- After the 32 trips the accumulated parts are the whole distance. -/
theorem accTo_32 (u v : Fin 4096 → EReal) : accTo u v 32 = dist u v := by
  rw [accTo_eq_sum u v 32 le_rfl]
  exact BlockSum.sum_blocks 32 128 (fun K : Fin (32 * 128) => ab (u K - v K))

/-- The reference's result at a row: minus the sum over the rows `j` of the two mean distances' product, each sum from the
    zero initial value. -/
def refOut (dx dy : Fin 256 → EReal) : EReal :=
  -(Ideal.ofBits .f32 0x00000000#32
      + ∑ j : Fin 256, Ideal.div (Ideal.ofBits .f32 0x00000000#32 + dx j) (Ideal.ofBits .f32 0x45800000#32)
          * Ideal.div (Ideal.ofBits .f32 0x00000000#32 + dy j) (Ideal.ofBits .f32 0x45800000#32))

/-- The kernel's result at a row: zero minus the sum over `j` of the two scaled distances' product. -/
def kerOut (dx dy : Fin 256 → EReal) : EReal :=
  Ideal.ofBits .f32 0x00000000#32
    - ∑ j : Fin 256, (dx j * Ideal.ofBits .f32 0x39800000#32) * (dy j * Ideal.ofBits .f32 0x39800000#32)

/-- The two are one extended real. -/
theorem kerOut_eq_refOut (dx dy : Fin 256 → EReal) : kerOut dx dy = refOut dx dy := by
  unfold kerOut refOut
  simp only [Ideal.ofBits_zero_f32, zero_add, div_4096]
  rw [sub_eq_add_neg, zero_add]

end Cert.Spec

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibRowJoin.lean ====
/-
  Rows joined side by side, read at an index.

  Joining arrays of equal row count along the column axis lays their rows end to end: row `p` of the result is row
  `p` of the first array, then row `p` of the second, and so on. This file names the joined row of two or three
  rows (`join2`, `join3`), reads a two- or three-piece concatenation of rank-2 arrays along axis 1 at `(p, q)` as
  that joined row at `q`, and states the one law of sums such a join obeys: a sum over a joined row of products
  with a second factor is the sum over the first row plus the sum over the second, the second factor read at
  the matching positions. All statements are general in the extents.
-/
import Idealize.ShloMosaic.Lib.Pipeline.Value
import Idealize.ShloMosaic.Lib.ValueIdx

noncomputable section

namespace Cert.Lib.RowJoin

open Idealize.ShloMosaic Idealize.ShloMosaic.ValueIdx

variable {α : Type}

/-- Two rows laid end to end: position `q < n1` reads the first row at `q`, position `q ≥ n1` the second at `q - n1`. -/
def join2 {n1 n2 N : ℕ} (hN : N = n1 + n2) (u : Fin n1 → α) (v : Fin n2 → α) : Fin N → α := fun q =>
  if h : q.val < n1 then u ⟨q.val, h⟩ else v ⟨q.val - n1, by have := q.isLt; omega⟩

/-- Three rows laid end to end. -/
def join3 {n1 n2 n3 N : ℕ} (hN : N = n1 + n2 + n3) (u : Fin n1 → α) (v : Fin n2 → α) (w : Fin n3 → α) : Fin N → α := fun q =>
  if h : q.val < n1 then u ⟨q.val, h⟩
  else if h' : q.val < n1 + n2 then v ⟨q.val - n1, by omega⟩
  else w ⟨q.val - (n1 + n2), by have := q.isLt; omega⟩

theorem join2_left {n1 n2 N : ℕ} (hN : N = n1 + n2) (u : Fin n1 → α) (v : Fin n2 → α) (k : Fin n1) :
    join2 hN u v ⟨k.val, by have := k.isLt; omega⟩ = u k := by
  unfold join2
  rw [dif_pos (show k.val < n1 from k.isLt)]

theorem join2_right {n1 n2 N : ℕ} (hN : N = n1 + n2) (u : Fin n1 → α) (v : Fin n2 → α) (k : Fin n2) :
    join2 hN u v ⟨n1 + k.val, by have := k.isLt; omega⟩ = v k := by
  unfold join2
  rw [dif_neg (show ¬ n1 + k.val < n1 by omega)]
  exact congrArg v (Fin.ext (by show n1 + k.val - n1 = k.val; omega))

/-- A sum over the positions of a joined row, each term a product with a second factor, splits into the sum over
    the first row and the sum over the second: only commutativity and associativity of addition are used, so this
    holds in any commutative monoid with a multiplication (the extended reals included, infinities and all). -/
theorem sum_join2_mul {M : Type} [AddCommMonoid M] [Mul M] {n1 n2 N : ℕ} (hN : N = n1 + n2) (u : Fin n1 → M) (v : Fin n2 → M)
    (f : Fin N → M) :
    ∑ q : Fin N, join2 hN u v q * f q
      = (∑ k : Fin n1, u k * f ⟨k.val, by have := k.isLt; omega⟩) + ∑ k : Fin n2, v k * f ⟨n1 + k.val, by have := k.isLt; omega⟩ := by
  subst hN
  rw [Fin.sum_univ_add]
  refine congrArg₂ (· + ·) (Finset.sum_congr rfl fun k _ => ?_) (Finset.sum_congr rfl fun k _ => ?_)
  · exact congrArg (· * _) (join2_left rfl u v k)
  · exact congrArg (· * _) (join2_right rfl u v k)

/-- Two rank-2 arrays of `R` rows joined along axis 1: entry `(p, q)` is the joined row `p` at `q`. -/
theorem concat2_cols_apply {R n1 n2 N : ℕ} (hN : N = n1 + n2) (x1 : (⟨2, ![R, n1]⟩ : Shape).Idx → α) (x2 : (⟨2, ![R, n2]⟩ : Shape).Idx → α)
    (h : Shape.Concatenates [(⟨2, ![R, n1]⟩ : Shape), ⟨2, ![R, n2]⟩] ⟨2, ![R, N]⟩ 1) (p : Fin R) (q : Fin N) :
    concatenate ⟨2, ![R, N]⟩ 1 [⟨⟨2, ![R, n1]⟩, x1⟩, ⟨⟨2, ![R, n2]⟩, x2⟩] h (ix2 p q)
      = join2 hN (fun k => x1 (ix2 p k)) (fun k => x2 (ix2 p k)) q := by
  unfold join2
  by_cases hq : q.val < n1
  · rw [dif_pos hq]
    refine concatenate_pair_apply_left 1 x1 x2 h (ix2 p q) rfl (ix2 p ⟨q.val, hq⟩) fun b => ?_
    match b with
    | ⟨0, _⟩ => rfl
    | ⟨1, _⟩ => rfl
  · rw [dif_neg hq]
    refine concatenate_pair_apply_right 1 x1 x2 h (ix2 p q) rfl rfl (ix2 p ⟨q.val - n1, by have := q.isLt; omega⟩) (fun b hb => ?_) ?_
    · match b with
      | ⟨0, _⟩ => rfl
      | ⟨1, _⟩ => exact absurd rfl hb
    · show q.val - n1 + n1 = q.val
      omega

/-- Three rank-2 arrays of `R` rows joined along axis 1: entry `(p, q)` is the joined row `p` at `q`. -/
theorem concat3_cols_apply {R n1 n2 n3 N : ℕ} (hN : N = n1 + n2 + n3) (x1 : (⟨2, ![R, n1]⟩ : Shape).Idx → α)
    (x2 : (⟨2, ![R, n2]⟩ : Shape).Idx → α) (x3 : (⟨2, ![R, n3]⟩ : Shape).Idx → α)
    (h : Shape.Concatenates [(⟨2, ![R, n1]⟩ : Shape), ⟨2, ![R, n2]⟩, ⟨2, ![R, n3]⟩] ⟨2, ![R, N]⟩ 1) (p : Fin R) (q : Fin N) :
    concatenate ⟨2, ![R, N]⟩ 1 [⟨⟨2, ![R, n1]⟩, x1⟩, ⟨⟨2, ![R, n2]⟩, x2⟩, ⟨⟨2, ![R, n3]⟩, x3⟩] h (ix2 p q)
      = join3 hN (fun k => x1 (ix2 p k)) (fun k => x2 (ix2 p k)) (fun k => x3 (ix2 p k)) q := by
  unfold join3
  by_cases hq : q.val < n1
  · rw [dif_pos hq]
    refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 0 (Nat.zero_lt_succ _) ⟨2, ![R, n1]⟩ x1 rfl rfl 0 rfl (ix2 p ⟨q.val, hq⟩) (fun b hb => ?_) ?_
    · match b with
      | ⟨0, _⟩ => rfl
      | ⟨1, _⟩ => exact absurd rfl hb
    · show 0 + q.val = q.val
      omega
  · rw [dif_neg hq]
    by_cases hq' : q.val < n1 + n2
    · rw [dif_pos hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 1 (Nat.succ_lt_succ (Nat.zero_lt_succ _)) ⟨2, ![R, n2]⟩ x2 rfl rfl n1 (by simp) (ix2 p ⟨q.val - n1, by omega⟩) (fun b hb => ?_) ?_
      · match b with
        | ⟨0, _⟩ => rfl
        | ⟨1, _⟩ => exact absurd rfl hb
      · show n1 + (q.val - n1) = q.val
        omega
    · rw [dif_neg hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 2 (Nat.succ_lt_succ (Nat.succ_lt_succ (Nat.zero_lt_succ _))) ⟨2, ![R, n3]⟩ x3 rfl rfl (n1 + n2) (by simp) (ix2 p ⟨q.val - (n1 + n2), by have := q.isLt; omega⟩) (fun b hb => ?_) ?_
      · match b with
        | ⟨0, _⟩ => rfl
        | ⟨1, _⟩ => exact absurd rfl hb
      · show n1 + n2 + (q.val - (n1 + n2)) = q.val
        omega

end Cert.Lib.RowJoin

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.KernelIdealPayload.lean ====
import proofs.«158249_j45664092291537_1_alg».proof.Proof.Gen.KernelIdeal.Skeleton
import proofs.«158249_j45664092291537_1_alg».proof.Proof.Spec
import proofs.«158249_j45664092291537_1_alg».proof.Proof.LibAxisFolds
import proofs.«158249_j45664092291537_1_alg».proof.Proof.LibRowJoin
import proofs.«158249_j45664092291537_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

/-! The body's arithmetic on the extended reals, read at an index.  One trip adds to each accumulator entry `(p, j)` the
    sum over the trip's 128 columns of the absolute difference of row `p` of the block and row `j` of the whole array (the
    rows `j < 128` and `j ≥ 128` come from two tiles laid side by side).  The last payload scales both accumulators by
    2⁻¹², multiplies them entry by entry, sums each row over its 256 entries, and subtracts the sum from zero. -/
namespace Cert.KernelIdeal.Payload

open Cert.KernelIdeal Cert.KernelIdeal.Gen Idealize.ShloMosaic Idealize.ShloMosaic.ValueIdx Cert.Spec
open Cert.Lib.AxisFolds Cert.Lib.RowJoin Cert.Lib.Keepdims

/-- The [128,128] tile whose entry `(p, q)` is the lane sum of the absolute differences of row `p` of `v` and row `q` of `w`. -/
def pairTile (v w : FVec Ideal S128x128 .f32) : FVec Ideal S128x128 .f32 :=
  multiReduction (F := Ideal) .add [2] S128x128
    (absf (subf (broadcastTo S128x128x128 (shapeCast S128x1x128 v shapeCasts_S128x128_S128x1x128) broadcasts_S128x1x128_S128x128x128)
      (broadcastTo S128x128x128 (shapeCast S1x128x128 w shapeCasts_S128x128_S1x128x128) broadcasts_S1x128x128_S128x128x128)))
    0x00000000#32 reduces_S128x128x128_S128x128 (.inl rfl) rfl

theorem pairTile_apply (v w : FVec Ideal S128x128 .f32) (p q : Fin 128) :
    pairTile v w (ix2 p q) = ∑ l : Fin 128, ab (v (ix2 p l) - w (ix2 q l)) := by
  unfold pairTile
  refine (lastSum3_apply (a := 128) (b := 128) (c := 128) _ _ _ _ _ p q).trans ?_
  refine Finset.sum_congr rfl fun l _ => ?_
  show ab (broadcastTo S128x128x128 (shapeCast S128x1x128 v shapeCasts_S128x128_S128x1x128) broadcasts_S128x1x128_S128x128x128 (ix3 p q l)
      - broadcastTo S128x128x128 (shapeCast S1x128x128 w shapeCasts_S128x128_S1x128x128) broadcasts_S1x128x128_S128x128x128 (ix3 p q l)) = _
  rw [broadcastTo_a1c_abc_apply, broadcastTo_1bc_abc_apply, shapeCast_ab_a1b_apply, shapeCast_ab_1ab_apply]

/-- The two trip payloads are an accumulator plus two tiles laid side by side. -/
theorem pay3_eq (acc : FVec Ideal S128x256 .f32) (v17 v21 v39 : FVec Ideal S128x128 .f32) :
    k0_pay3 (F := Ideal) acc v17 v21 v39
      = addf acc (concatenate S128x256 1 [⟨S128x128, pairTile v17 v21⟩, ⟨S128x128, pairTile v17 v39⟩] concatenates_S128x128_S128x128_S128x256_d1) := rfl

theorem pay4_eq (acc : FVec Ideal S128x256 .f32) (v19 v23 v41 : FVec Ideal S128x128 .f32) :
    k0_pay4 (F := Ideal) acc v19 v23 v41
      = addf acc (concatenate S128x256 1 [⟨S128x128, pairTile v19 v23⟩, ⟨S128x128, pairTile v19 v41⟩] concatenates_S128x128_S128x128_S128x256_d1) := rfl

theorem h256 : 256 = 128 + 128 := by norm_num

/-- A trip's payload at `(p, j)`: the accumulator there plus the lane sum against row `j` of the two tiles joined. -/
theorem pay3_apply (acc : FVec Ideal S128x256 .f32) (v17 v21 v39 : FVec Ideal S128x128 .f32) (p : Fin 128) (j : Fin 256) :
    k0_pay3 (F := Ideal) acc v17 v21 v39 (ix2 p j)
      = acc (ix2 p j) + join2 h256 (fun q : Fin 128 => ∑ l : Fin 128, ab (v17 (ix2 p l) - v21 (ix2 q l)))
          (fun q : Fin 128 => ∑ l : Fin 128, ab (v17 (ix2 p l) - v39 (ix2 q l))) j := by
  rw [pay3_eq, addf_apply, concat2_cols_apply h256]
  simp only [pairTile_apply]

theorem pay4_apply (acc : FVec Ideal S128x256 .f32) (v19 v23 v41 : FVec Ideal S128x128 .f32) (p : Fin 128) (j : Fin 256) :
    k0_pay4 (F := Ideal) acc v19 v23 v41 (ix2 p j)
      = acc (ix2 p j) + join2 h256 (fun q : Fin 128 => ∑ l : Fin 128, ab (v19 (ix2 p l) - v23 (ix2 q l)))
          (fun q : Fin 128 => ∑ l : Fin 128, ab (v19 (ix2 p l) - v41 (ix2 q l))) j := by
  rw [pay4_eq, addf_apply, concat2_cols_apply h256]
  simp only [pairTile_apply]

/-- The initial accumulators are zero everywhere. -/
theorem pay1_apply (i : S128x256.Idx) : k0_pay1 (F := Ideal) i = Ideal.ofBits .f32 0x00000000#32 := rfl
theorem pay2_apply (i : S128x256.Idx) : k0_pay2 (F := Ideal) i = Ideal.ofBits .f32 0x00000000#32 := rfl

/-- The row product-sum of the two scaled accumulators, before the keepdims column and the negation. -/
def rowSum (a b : FVec Ideal S128x256 .f32) : FVec Ideal S128 .f32 :=
  multiReduction (F := Ideal) .add [1] S128
    (mulf (mulf a (broadcast S128x256 (Scalar.ofBits (F := Ideal) .f32 0x39800000#32)))
      (mulf b (broadcast S128x256 (Scalar.ofBits (F := Ideal) .f32 0x39800000#32))))
    0x00000000#32 reduces_S128x256_S128 (.inl rfl) rfl

theorem pay5_eq (a b : FVec Ideal S128x256 .f32) :
    k0_pay5 (F := Ideal) a b
      = subf (broadcast S128x1 (Scalar.ofBits (F := Ideal) .f32 0x00000000#32)) (shapeCast S128x1 (rowSum a b) shapeCasts_S128_S128x1) := rfl

/-- The last payload at row `p` of the column: zero minus the sum over `j` of the two scaled accumulators' product. -/
theorem pay5_apply (a b : FVec Ideal S128x256 .f32) (p : Fin 128) (u : Fin 1) :
    k0_pay5 (F := Ideal) a b (ix2 p u) = kerOut (fun j => a (ix2 p j)) (fun j => b (ix2 p j)) := by
  rw [pay5_eq, subf_apply, shapeCast_a_a1_apply]
  unfold rowSum
  refine (congrArg (_ - ·) (laneSum_apply (a := 128) (b := 256) _ _ _ _ _ p)).trans ?_
  rfl

end Cert.KernelIdeal.Payload

end
-- ==== Proof.KernelIdealLoop.lean ====
import proofs.«158249_j45664092291537_1_alg».proof.Proof.KernelIdealBody
import proofs.«158249_j45664092291537_1_alg».proof.Proof.KernelIdealPayload
import Idealize.ShloMosaic.Lib.WholeRead

set_option maxRecDepth 16384

noncomputable section

/-! The body's result column on the extended reals.  A trip of the loop yields its two payloads of the carried pair and
    of six loads: columns `128 k … 128 k + 127` of the row block (both arguments), of rows 0 … 127 and of rows
    128 … 255 of the whole array.  So before trip `n` the carried accumulators hold, at `(p, j)`, the first `n` parts
    of the distance of row `p` of the block and row `j` of the array; after the 32 trips, the distance.  The stored
    column is the last payload of the two. -/
namespace Cert.KernelIdeal.Hand

open Cert.KernelIdeal Cert.KernelIdeal.Gen Cert.KernelIdeal.Payload Cert.Spec
open Idealize.ShloMosaic Idealize.ShloMosaic.TcCoe Idealize.ShloMosaic.ValueIdx
open Idealize.SL Idealize.SL.Sem
open Cert.Lib.RowJoin

theorem trips_eq : k0_t1_loop.trips = 32 := by decide

/-- One trip's yield: the two payloads of the carried pair and of the six loads of the trip's columns. -/
theorem trip_eq {F : FTy → Type} [FloatOps F] (𝒱 : Variants) (c : Dev nD) (bd : Option 𝒱.V) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (X1 : BufTy.Contents (Elt F) arg1.view.ty) (X2 : BufTy.Contents (Elt F) arg2.view.ty) (X3 : BufTy.Contents (Elt F) arg3.view.ty) (X4 : BufTy.Contents (Elt F) arg4.view.ty)
    (k : Fin k0_t1_loop.trips) (acc : FVec F S128x256 .f32 × FVec F S128x256 .f32) :
    tripR_k0_t1 (F := F) 𝒱 c bd i arg1 harg1 arg2 harg2 arg3 harg3 arg4 harg4 arg5 harg5 X1 X2 X3 X4 k acc
      = (k0_pay3 acc.1 (View.readAt (Elt F) arg1.view (Rect.unit (s := S128x4096) (k0_off1 k) S128x128.size (k0_off1_inb k)).toLoadRect X1)
            (View.readAt (Elt F) arg2.view (Rect.unit (s := S256x4096) (k0_off2 k) S128x128.size (k0_off2_inb k)).toLoadRect X2)
            (View.readAt (Elt F) arg2.view (Rect.unit (s := S256x4096) (k0_off3 k) S128x128.size (k0_off3_inb k)).toLoadRect X2),
         k0_pay4 acc.2 (View.readAt (Elt F) arg3.view (Rect.unit (s := S128x4096) (k0_off1 k) S128x128.size (k0_off1_inb k)).toLoadRect X3)
            (View.readAt (Elt F) arg4.view (Rect.unit (s := S256x4096) (k0_off2 k) S128x128.size (k0_off2_inb k)).toLoadRect X4)
            (View.readAt (Elt F) arg4.view (Rect.unit (s := S256x4096) (k0_off3 k) S128x128.size (k0_off3_inb k)).toLoadRect X4)) := by
  unfold tripR_k0_t1 trip_k0_t1
  rfl

variable {F : FTy → Type} [FloatOps F]

/-- The block's load of trip `k` reads columns `128 k + l` of the block's rows. -/
theorem ldBlock_apply {m : Memref sig .tc .vmem S128x4096 .f32} (h : m.IsWhole) (x : FVec F S128x4096 .f32) (k : Fin k0_t1_loop.trips)
    (p l : Fin 128) (hb : 128 * k.val + l.val < 4096) :
    View.readAt (Elt F) m.view (Rect.unit (s := S128x4096) (k0_off1 k) S128x128.size (k0_off1_inb k)).toLoadRect (h.unread x) (ix2 p l)
      = x (ix2 p ⟨128 * k.val + l.val, hb⟩) := by
  rw [h.readAt_unread]
  refine congrArg x (funext fun a => Fin.ext ?_)
  have e := k0_off1_eq k
  match a with
  | ⟨0, _⟩ => show k0_off1 k 0 + 1 * p.val = p.val; rw [e]; show 0 + 1 * p.val = p.val; omega
  | ⟨1, _⟩ => show k0_off1 k 1 + 1 * l.val = 128 * k.val + l.val; rw [e]; show 128 * k.val + 1 * l.val = 128 * k.val + l.val; omega

/-- The array's first load of trip `k` reads columns `128 k + l` of rows 0 … 127. -/
theorem ldLow_apply {m : Memref sig .tc .vmem S256x4096 .f32} (h : m.IsWhole) (x : FVec F S256x4096 .f32) (k : Fin k0_t1_loop.trips)
    (q l : Fin 128) (hq : q.val < 256) (hb : 128 * k.val + l.val < 4096) :
    View.readAt (Elt F) m.view (Rect.unit (s := S256x4096) (k0_off2 k) S128x128.size (k0_off2_inb k)).toLoadRect (h.unread x) (ix2 q l)
      = x (ix2 ⟨q.val, hq⟩ ⟨128 * k.val + l.val, hb⟩) := by
  rw [h.readAt_unread]
  refine congrArg x (funext fun a => Fin.ext ?_)
  have e := k0_off2_eq k
  match a with
  | ⟨0, _⟩ => show k0_off2 k 0 + 1 * q.val = q.val; rw [e]; show 0 + 1 * q.val = q.val; omega
  | ⟨1, _⟩ => show k0_off2 k 1 + 1 * l.val = 128 * k.val + l.val; rw [e]; show 128 * k.val + 1 * l.val = 128 * k.val + l.val; omega

/-- The array's second load of trip `k` reads columns `128 k + l` of rows 128 … 255. -/
theorem ldHigh_apply {m : Memref sig .tc .vmem S256x4096 .f32} (h : m.IsWhole) (x : FVec F S256x4096 .f32) (k : Fin k0_t1_loop.trips)
    (q l : Fin 128) (hq : 128 + q.val < 256) (hb : 128 * k.val + l.val < 4096) :
    View.readAt (Elt F) m.view (Rect.unit (s := S256x4096) (k0_off3 k) S128x128.size (k0_off3_inb k)).toLoadRect (h.unread x) (ix2 q l)
      = x (ix2 ⟨128 + q.val, hq⟩ ⟨128 * k.val + l.val, hb⟩) := by
  rw [h.readAt_unread]
  refine congrArg x (funext fun a => Fin.ext ?_)
  have e := k0_off3_eq k
  match a with
  | ⟨0, _⟩ => show k0_off3 k 0 + 1 * q.val = 128 + q.val; rw [e]; show 128 + 1 * q.val = 128 + q.val; omega
  | ⟨1, _⟩ => show k0_off3 k 1 + 1 * l.val = 128 * k.val + l.val; rw [e]; show 128 * k.val + 1 * l.val = 128 * k.val + l.val; omega

/-- The two tiles of a trip joined, at row `j` of the array: the trip's part of the distance of row `p` of the block and
    row `j` of the array. -/
theorem join_chunk {m1 : Memref sig .tc .vmem S128x4096 .f32} (h1 : m1.IsWhole) {m2 : Memref sig .tc .vmem S256x4096 .f32} (h2 : m2.IsWhole)
    (x1 : FVec Ideal S128x4096 .f32) (x2 : FVec Ideal S256x4096 .f32) (k : Fin k0_t1_loop.trips) (hk : k.val < 32) (p : Fin 128) (j : Fin 256) :
    join2 h256
        (fun q : Fin 128 => ∑ l : Fin 128,
          ab (View.readAt (Elt Ideal) m1.view (Rect.unit (s := S128x4096) (k0_off1 k) S128x128.size (k0_off1_inb k)).toLoadRect (h1.unread x1) (ix2 p l)
            - View.readAt (Elt Ideal) m2.view (Rect.unit (s := S256x4096) (k0_off2 k) S128x128.size (k0_off2_inb k)).toLoadRect (h2.unread x2) (ix2 q l)))
        (fun q : Fin 128 => ∑ l : Fin 128,
          ab (View.readAt (Elt Ideal) m1.view (Rect.unit (s := S128x4096) (k0_off1 k) S128x128.size (k0_off1_inb k)).toLoadRect (h1.unread x1) (ix2 p l)
            - View.readAt (Elt Ideal) m2.view (Rect.unit (s := S256x4096) (k0_off3 k) S128x128.size (k0_off3_inb k)).toLoadRect (h2.unread x2) (ix2 q l)))
        j
      = chunk (fun K => x1 (ix2 p K)) (fun K => x2 (ix2 j K)) k.val hk := by
  unfold join2 chunk
  by_cases hj : j.val < 128
  · rw [dif_pos hj]
    refine Finset.sum_congr rfl fun l _ => ?_
    have hb : 128 * k.val + l.val < 4096 := by have := l.isLt; omega
    rw [ldBlock_apply h1 x1 k p l hb, ldLow_apply h2 x2 k ⟨j.val, hj⟩ l (by have := j.isLt; omega) hb]
  · rw [dif_neg hj]
    refine Finset.sum_congr rfl fun l _ => ?_
    have hb : 128 * k.val + l.val < 4096 := by have := l.isLt; omega
    have hj2 : 128 + (j.val - 128) < 256 := by have := j.isLt; omega
    rw [ldBlock_apply h1 x1 k p l hb, ldHigh_apply h2 x2 k ⟨j.val - 128, by have := j.isLt; omega⟩ l hj2 hb]
    have ej : (⟨128 + (j.val - 128), hj2⟩ : Fin 256) = j := Fin.ext (by show 128 + (j.val - 128) = j.val; omega)
    rw [ej]

/-- Before trip `n` the carried pair holds, at `(p, j)`, the first `n` parts of the two distances of row `p` of the
    blocks and row `j` of the arrays. -/
theorem carried_apply (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : FVec Ideal S128x4096 .f32) (x2 : FVec Ideal S256x4096 .f32) (x3 : FVec Ideal S128x4096 .f32) (x4 : FVec Ideal S256x4096 .f32)
    (p : Fin 128) (j : Fin 256) : ∀ n, n ≤ 32 →
    (st_k0_t1 (F := Ideal) Variants.none c none i arg1 harg1 arg2 harg2 arg3 harg3 arg4 harg4 arg5 harg5
        (harg1.unread x1) (harg2.unread x2) (harg3.unread x3) (harg4.unread x4) (k0_pay1, k0_pay2) n).1 (ix2 p j)
      = accTo (fun K => x1 (ix2 p K)) (fun K => x2 (ix2 j K)) n
    ∧ (st_k0_t1 (F := Ideal) Variants.none c none i arg1 harg1 arg2 harg2 arg3 harg3 arg4 harg4 arg5 harg5
        (harg1.unread x1) (harg2.unread x2) (harg3.unread x3) (harg4.unread x4) (k0_pay1, k0_pay2) n).2 (ix2 p j)
      = accTo (fun K => x3 (ix2 p K)) (fun K => x4 (ix2 j K)) n
  | 0, _ => ⟨rfl, rfl⟩
  | n + 1, hn => by
    have hlt : n < 32 := by omega
    obtain ⟨ih1, ih2⟩ := carried_apply c i arg1 harg1 arg2 harg2 arg3 harg3 arg4 harg4 arg5 harg5 x1 x2 x3 x4 p j n (by omega)
    have hk : n < k0_t1_loop.trips := by rw [trips_eq]; exact hlt
    have hs := st_k0_t1_succ (F := Ideal) Variants.none c none i arg1 harg1 arg2 harg2 arg3 harg3 arg4 harg4 arg5 harg5
      (harg1.unread x1) (harg2.unread x2) (harg3.unread x3) (harg4.unread x4) (k0_pay1, k0_pay2) ⟨n, hk⟩
    rw [show (⟨n, hk⟩ : Fin k0_t1_loop.trips).val + 1 = n + 1 from rfl] at hs
    rw [hs, trip_eq]
    constructor
    · show k0_pay3 (F := Ideal) _ _ _ _ (ix2 p j) = _
      rw [pay3_apply, accTo_succ _ _ n hlt, join_chunk harg1 harg2 x1 x2 ⟨n, hk⟩ hlt p j]
      exact congrArg (· + _) ih1
    · show k0_pay4 (F := Ideal) _ _ _ _ (ix2 p j) = _
      rw [pay4_apply, accTo_succ _ _ n hlt, join_chunk harg3 harg4 x3 x4 ⟨n, hk⟩ hlt p j]
      exact congrArg (· + _) ih2

theorem hz : (![0, 0] : Fin 2 → Nat) = fun _ => 0 := funext fun a => by fin_cases a <;> rfl

/-- The result's staging buffer after the body is the last payload of the loop's final carried pair. -/
theorem out5_eq {F : FTy → Type} [FloatOps F] (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : Vec F S128x4096 .f32) (x2 : Vec F S256x4096 .f32) (x3 : Vec F S128x4096 .f32) (x4 : Vec F S256x4096 .f32) :
    out5 (F := F) c i arg1 harg1 arg2 harg2 arg3 harg3 arg4 harg4 arg5 harg5 x1 x2 x3 x4
      = k0_pay5
          (st_k0_t1 Variants.none c none i arg1 harg1 arg2 harg2 arg3 harg3 arg4 harg4 arg5 harg5 (harg1.unread x1) (harg2.unread x2)
            (harg3.unread x3) (harg4.unread x4) (k0_pay1, k0_pay2) 32).1
          (st_k0_t1 Variants.none c none i arg1 harg1 arg2 harg2 arg3 harg3 arg4 harg4 arg5 harg5 (harg1.unread x1) (harg2.unread x2)
            (harg3.unread x3) (harg4.unread x4) (k0_pay1, k0_pay2) 32).2 := by
  unfold out5
  rw [View.read_writes_eq_canon _ _ _ (cover5 c i arg1 harg1 arg2 harg2 arg3 harg3 arg4 harg4 arg5 harg5 x1 x2 x3 x4)]
  unfold bodyRun
  dsimp only
  rw [View.canon_unit_zero hz]
  rfl

/-- The body's result column on the extended reals, at row `p` of the block: the reference's formula of the distances
    of row `p` of the blocks against every row of the arrays. -/
theorem out5_apply (c : Dev nD) (i : grid0.Coords) (arg1 : Memref sig .tc .vmem S128x4096 .f32) (harg1 : arg1.IsWhole) (arg2 : Memref sig .tc .vmem S256x4096 .f32) (harg2 : arg2.IsWhole) (arg3 : Memref sig .tc .vmem S128x4096 .f32) (harg3 : arg3.IsWhole) (arg4 : Memref sig .tc .vmem S256x4096 .f32) (harg4 : arg4.IsWhole) (arg5 : Memref sig .tc .vmem S128x1 .f32) (harg5 : arg5.IsWhole)
    (x1 : FVec Ideal S128x4096 .f32) (x2 : FVec Ideal S256x4096 .f32) (x3 : FVec Ideal S128x4096 .f32) (x4 : FVec Ideal S256x4096 .f32)
    (p : Fin 128) (u : Fin 1) :
    out5 (F := Ideal) c i arg1 harg1 arg2 harg2 arg3 harg3 arg4 harg4 arg5 harg5 x1 x2 x3 x4 (ix2 p u)
      = refOut (fun j => dist (fun K => x1 (ix2 p K)) (fun K => x2 (ix2 j K))) (fun j => dist (fun K => x3 (ix2 p K)) (fun K => x4 (ix2 j K))) := by
  rw [out5_eq, pay5_apply, ← kerOut_eq_refOut]
  refine congrArg₂ kerOut (funext fun j => ?_) (funext fun j => ?_)
  · rw [(carried_apply c i arg1 harg1 arg2 harg2 arg3 harg3 arg4 harg4 arg5 harg5 x1 x2 x3 x4 p j 32 le_rfl).1, accTo_32]
  · rw [(carried_apply c i arg1 harg1 arg2 harg2 arg3 harg3 arg4 harg4 arg5 harg5 x1 x2 x3 x4 p j 32 le_rfl).2, accTo_32]

end Cert.KernelIdeal.Hand

end
-- ==== Proof.KernelIdealValue.lean ====
import proofs.«158249_j45664092291537_1_alg».proof.Proof.KernelIdealRun
import proofs.«158249_j45664092291537_1_alg».proof.Proof.KernelIdealLoop
import proofs.«158249_j45664092291537_1_alg».proof.Proof.Gen.ReferenceIdeal.Read
import Idealize.ShloMosaic.Lib.Pipeline.Value

set_option maxRecDepth 16384

noncomputable section

/-! From blocks to the arrays.  At grid point `t` the row blocks are rows `128 t … 128 t + 127` of the two arguments and the
    other two windows are the arguments whole, so the column the body stores at point `t` is rows `128 t …` of one
    function of the arguments: at row `r`, the reference's formula of the distances of row `r` against every row.  The two
    points' blocks cover the result column; the reshape reads it off as a vector; and the reference's own result, read
    one operation at a time, is the same formula. -/
namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result at row `r`, of the two argument arrays: the reference's formula of the rows' L1 distances. -/
def rowOut (x y : S256x4096.Idx → EReal) (r : Fin 256) : EReal :=
  refOut (fun j => dist (fun K => x (ix2 r K)) (fun K => x (ix2 j K))) (fun j => dist (fun K => y (ix2 r K)) (fun K => y (ix2 j K)))

/-- The result column. -/
def colOut (x y : S256x4096.Idx → EReal) : S256x1.Idx → EReal := fun i => rowOut x y ⟨(i 0).val, (i 0).isLt⟩

/-- The printed index maps over the grid: the row blocks move with the point, the whole-array windows do not. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 2 := by
  have h := t.isLt
  have hN : cfg0.N = 2 := N_0
  omega

/-- The row block of the first argument at point `t`: rows `128 t + p`. -/
theorem iblk0_apply (c : Dev nD) (t : Fin cfg0.N) (p : Fin 128) (K : Fin 4096) (hr : 128 * t.val + p.val < 256) :
    iblk m c 0 t (ix2 p K) = V m c main_arg0 (ix2 ⟨128 * t.val + p.val, hr⟩ K) := by
  obtain ⟨e0, e1, -⟩ := idx_facts t
  show V m c main_arg0 (((cfg0.win 0).blk t).view.emb (ix2 p K)) = _
  refine congrArg (V m c main_arg0) (funext fun a => Fin.ext ?_)
  match a with
  | ⟨0, _⟩ => show win0_0.index t (0 : Fin 2) * 128 + 1 * p.val = 128 * t.val + p.val; omega
  | ⟨1, _⟩ => show win0_0.index t (1 : Fin 2) * 4096 + 1 * K.val = K.val; omega

/-- The first argument whole. -/
theorem iblk1_apply (c : Dev nD) (t : Fin cfg0.N) (j : Fin 256) (K : Fin 4096) :
    iblk m c 1 t (ix2 j K) = V m c main_arg0 (ix2 j K) := by
  obtain ⟨-, -, e2, e3, -⟩ := idx_facts t
  show V m c main_arg0 (((cfg0.win 1).blk t).view.emb (ix2 j K)) = _
  refine congrArg (V m c main_arg0) (funext fun a => Fin.ext ?_)
  match a with
  | ⟨0, _⟩ => show win0_1.index t (0 : Fin 2) * 256 + 1 * j.val = j.val; omega
  | ⟨1, _⟩ => show win0_1.index t (1 : Fin 2) * 4096 + 1 * K.val = K.val; omega

/-- The row block of the second argument at point `t`. -/
theorem iblk2_apply (c : Dev nD) (t : Fin cfg0.N) (p : Fin 128) (K : Fin 4096) (hr : 128 * t.val + p.val < 256) :
    iblk m c 2 t (ix2 p K) = V m c main_arg1 (ix2 ⟨128 * t.val + p.val, hr⟩ K) := by
  obtain ⟨-, -, -, -, e4, e5, -⟩ := idx_facts t
  show V m c main_arg1 (((cfg0.win 2).blk t).view.emb (ix2 p K)) = _
  refine congrArg (V m c main_arg1) (funext fun a => Fin.ext ?_)
  match a with
  | ⟨0, _⟩ => show win0_2.index t (0 : Fin 2) * 128 + 1 * p.val = 128 * t.val + p.val; omega
  | ⟨1, _⟩ => show win0_2.index t (1 : Fin 2) * 4096 + 1 * K.val = K.val; omega

/-- The second argument whole. -/
theorem iblk3_apply (c : Dev nD) (t : Fin cfg0.N) (j : Fin 256) (K : Fin 4096) :
    iblk m c 3 t (ix2 j K) = V m c main_arg1 (ix2 j K) := by
  obtain ⟨-, -, -, -, -, -, e6, e7, -⟩ := idx_facts t
  show V m c main_arg1 (((cfg0.win 3).blk t).view.emb (ix2 j K)) = _
  refine congrArg (V m c main_arg1) (funext fun a => Fin.ext ?_)
  match a with
  | ⟨0, _⟩ => show win0_3.index t (0 : Fin 2) * 256 + 1 * j.val = j.val; omega
  | ⟨1, _⟩ => show win0_3.index t (1 : Fin 2) * 4096 + 1 * K.val = K.val; omega

/-- What the body stores at point `t`, at row `p` of its block: the result at row `128 t + p`. -/
theorem outAt_apply (c : Dev nD) (t : Fin cfg0.N) (y : S128x1.Idx) (r : Fin 256) (hr : r.val = 128 * t.val + (y 0).val) :
    outAt m c t y = rowOut (V m c main_arg0) (V m c main_arg1) r := by
  obtain ⟨p, u, rfl⟩ : ∃ (p : Fin 128) (u : Fin 1), y = ix2 p u := ⟨y 0, y 1, eq_ix2 y⟩
  have hr' : 128 * t.val + p.val < 256 := by have := t_lt t; have := p.isLt; omega
  have er : r = ⟨128 * t.val + p.val, hr'⟩ := Fin.ext hr
  subst er
  unfold outAt
  refine (out5_apply c (grid0.coords t) (ms0 t) (hs0 t) (ms1 t) (hs1 t) (ms2 t) (hs2 t) (ms3 t) (hs3 t) (ms4 t) (hs4 t)
    (iblk m c 0 t) (iblk m c 1 t) (iblk m c 2 t) (iblk m c 3 t) p u).trans ?_
  unfold rowOut
  refine congrArg₂ refOut (funext fun j => ?_) (funext fun j => ?_)
  · exact congrArg₂ dist (funext fun K => iblk0_apply m c t p K hr') (funext fun K => iblk1_apply m c t j K)
  · exact congrArg₂ dist (funext fun K => iblk2_apply m c t p K hr') (funext fun K => iblk3_apply m c t j K)

/-- WHAT POINT `t` WRITES BACK is block `t` of the result column. -/
theorem flushed4_eq (c : Dev nD) (t : Fin cfg0.N) :
    (dats m 0 c).flushed 4 t = ((cfg0.win 4).blk t).view.read (Elt Ideal) (colOut (V m c main_arg0) (V m c main_arg1)) := by
  show (cfg0.win 4).cut (grid0.coords t) ((dats m 0 c).after 4 t) = _
  rw [after4]
  obtain ⟨-, -, -, -, -, -, -, -, e8, e9⟩ := idx_facts t
  funext y
  show outAt m c t y = colOut (V m c main_arg0) (V m c main_arg1) (((cfg0.win 4).blk t).view.emb y)
  unfold colOut
  refine outAt_apply m c t y _ ?_
  show win0_4.index t (0 : Fin 2) * 128 + 1 * (y 0).val = 128 * t.val + (y 0).val
  omega

/-- An index of the result column is in point `t`'s block iff each coordinate is in the block's range on its axis. -/
theorem mem_blk4 (t : Fin cfg0.N) (i : S256x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v0).slice (win0_4.rect t)).set ↔ _
  rw [View.set_slice_whole, Rect.mem_set_unit]
  exact Iff.rfl

/-- Every entry of the result column is in the block of the point that holds its row: `row / 128`. -/
theorem cover4 (i : S256x1.Idx) : ∃ t : Fin cfg0.N, (cfg0.win 4).flush t = true ∧ i ∈ ((cfg0.win 4).blk t).view.set := by
  have hi0 : (i 0).val < 256 := (i 0).isLt
  have hi1 : (i 1).val < 1 := (i 1).isLt
  have hN : cfg0.N = 2 := N_0
  refine ⟨⟨(i 0).val / 128, by rw [hN]; omega⟩, flush0_4 _, ?_⟩
  obtain ⟨-, -, -, -, -, -, -, -, e8, e9⟩ := idx_facts ⟨(i 0).val / 128, by rw [hN]; omega⟩
  rw [mem_blk4]
  intro a
  match a with
  | ⟨0, _⟩ =>
    show win0_4.index _ (0 : Fin 2) * 128 ≤ (i 0).val ∧ (i 0).val < win0_4.index _ (0 : Fin 2) * 128 + 128
    rw [e8]; show (i 0).val / 128 * 128 ≤ (i 0).val ∧ (i 0).val < (i 0).val / 128 * 128 + 128; omega
  | ⟨1, _⟩ =>
    show win0_4.index _ (1 : Fin 2) * 1 ≤ (i 1).val ∧ (i 1).val < win0_4.index _ (1 : Fin 2) * 1 + 1
    rw [e9]; omega

/-- THE RESULT COLUMN after the run. -/
theorem final4 (c : Dev nD) : (dats m 0 c).arrAt 4 cfg0.N = colOut (V m c main_arg0) (V m c main_arg1) :=
  (dats m 0 c).arrAt_eq_of_cover 4 (colOut (V m c main_arg0) (V m c main_arg1)) (fun t _ => flushed4_eq m c t) cover4

/-- A column [a, 1] viewed as a vector [a]: entry `p` of the vector is entry `(p, 0)` of the column. -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- THE RESULT VECTOR after the reshape, at row `r`. -/
theorem result_apply (c : Dev nD) (r : Fin 256) :
    V' m c main_v1 (ix1 r) = rowOut (V m c main_arg0) (V m c main_arg1) r := by
  have e : (V' m c main_v1 : S256.Idx → EReal) = shapeCast S256 ((dats m 0 c).arrAt 4 cfg0.N) shapeCasts_S256x1_S256 := by
    unfold V'
    simp only [hostOps1]
    after_results
    rw [W_v0]
    rfl
  rw [e, final4]
  exact shapeCast_a1_a_apply (a := 256) _ _ r

/-! ## The reference, one operation at a time -/

open Cert.ReferenceIdeal.Read in
/-- The reference's result at row `r` is the same formula of its two arguments. -/
theorem reference_apply (x y : S256x4096.Idx → EReal) (r : Fin 256) :
    val_main_v20 (F := Ideal) x y (ix1 r) = rowOut x y r := by
  have hx0 : ∀ (j : Fin 256) (K : Fin 4096), idx_main_v0 (idx_main_v2 (idx_main_v6 (idx_main_v19 (ix1 r) j) K)) = ix2 r K := fun j K =>
    funext fun a => Fin.ext (by match a with | ⟨0, _⟩ => rfl | ⟨1, _⟩ => rfl)
  have hx1 : ∀ (j : Fin 256) (K : Fin 4096), idx_main_v1 (idx_main_v3 (idx_main_v6 (idx_main_v19 (ix1 r) j) K)) = ix2 j K := fun j K =>
    funext fun a => Fin.ext (by match a with | ⟨0, _⟩ => rfl | ⟨1, _⟩ => rfl)
  have hy0 : ∀ (j : Fin 256) (K : Fin 4096), idx_main_v9 (idx_main_v11 (idx_main_v15 (idx_main_v19 (ix1 r) j) K)) = ix2 r K := fun j K =>
    funext fun a => Fin.ext (by match a with | ⟨0, _⟩ => rfl | ⟨1, _⟩ => rfl)
  have hy1 : ∀ (j : Fin 256) (K : Fin 4096), idx_main_v10 (idx_main_v12 (idx_main_v15 (idx_main_v19 (ix1 r) j) K)) = ix2 j K := fun j K =>
    funext fun a => Fin.ext (by match a with | ⟨0, _⟩ => rfl | ⟨1, _⟩ => rfl)
  rw [val_main_v20_apply, val_main_v19_apply]
  simp only [val_main_v18_apply, val_main_v8_apply, val_main_v17_apply, val_main_v6_apply, val_main_v15_apply, val_main_v7_apply,
    val_main_v16_apply, val_main_cst_apply, val_main_cst_0_apply, val_main_cst_1_apply, val_main_cst_2_apply, val_main_cst_3_apply,
    val_main_v5_apply, val_main_v14_apply, val_main_v4_apply, val_main_v13_apply, val_main_v2_apply, val_main_v3_apply,
    val_main_v11_apply, val_main_v12_apply, val_main_v0_apply, val_main_v1_apply, val_main_v9_apply, val_main_v10_apply,
    hx0, hx1, hy0, hy1]
  rfl

end Cert.KernelIdeal.Hand

end
-- ==== Proof.lean ====
/- Pairwise mean-L1 product loss: a Pallas kernel against its jnp reference, equal on the extended reals.

   For two arrays x, y of 256 rows and 4096 columns the result at row r is
       -(Σ_j (d_x(r,j) / 4096) · (d_y(r,j) / 4096)),   d_a(r,j) = Σ_k |a(r,k) − a(j,k)|.
   The reference computes it whole.  The kernel takes the 256 rows in two blocks of 128 (one grid point each), reads
   each argument twice — its row block and the whole array, two windows on one array —, adds the distances up 128
   columns at a time over a 32-trip loop from zero, scales by 2⁻¹², multiplies, sums each row and subtracts from zero;
   a reshape then reads the result column as a vector.

   Frames.  The two kernel programs (the printed one at the word level, its idealization on the extended reals) run by
   the frame run for input windows that share an array, continued by the reshape: each argument's full share is dealt
   in halves to its two windows at the region's entry; the body reads its inputs and stores one column; the reshape
   touches only the result column and the result vector.  The reference is host operations only: its run gives its frame.

   Values.  The sums regroup by commutativity and associativity of addition alone, which hold on all extended reals;
   division by 4096 and the product with 2⁻¹² are one operation on every extended real; zero plus and zero minus are
   the identity and the negation.  So the two results are one function of the arguments, and the precondition is not used. -/
import proofs.«158249_j45664092291537_1_alg».proof.Defs
import proofs.«158249_j45664092291537_1_alg».proof.Proof.Gen.Kernel
import proofs.«158249_j45664092291537_1_alg».proof.Proof.Gen.KernelIdeal
import proofs.«158249_j45664092291537_1_alg».proof.Proof.Gen.ReferenceIdeal
import proofs.«158249_j45664092291537_1_alg».proof.Proof.Gen.ReferenceIdeal.Read
import proofs.«158249_j45664092291537_1_alg».proof.Proof.Gen.Pre_finite_inputs
import proofs.«158249_j45664092291537_1_alg».proof.Proof.KernelRun
import proofs.«158249_j45664092291537_1_alg».proof.Proof.KernelIdealValue

set_option maxRecDepth 16384

noncomputable section

namespace Cert.Proof

open Idealize.ShloMosaic Idealize.ShloMosaic.TcCoe Idealize.ShloMosaic.ValueIdx Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both programs end with the result vector at the reference's function of the arguments: the kernel's by its result
    column reshaped, row by row; the reference's by its own run read one operation at a time. -/
theorem algebraic : Cert.algebraic_KernelIdeal_ReferenceIdeal := by
  intro m ρ m' ρ' _ hagree
  refine ⟨fun c => Cert.ReferenceIdeal.Read.val_main_v20 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main m ρ)
    · rw [(h c).2 Cert.KernelIdeal.main_v1 (Pipeline.mem_restRefs_of _ rfl (by decide))]
      funext i
      obtain ⟨r0, rfl⟩ : ∃ r0 : Fin 256, i = ix1 r0 := ⟨i 0, eq_ix1 i⟩
      rw [Cert.KernelIdeal.Hand.result_apply]
      exact (Cert.KernelIdeal.Hand.reference_apply _ _ r0).symm
    · exact ((h c).1 0).trans (((Cert.KernelIdeal.Hand.dats m 0 c).arrAt_in 0 rfl _).trans (Cert.KernelIdeal.Hand.A_eq m c 0))
    · exact ((h c).1 2).trans (((Cert.KernelIdeal.Hand.dats m 0 c).arrAt_in 2 rfl _).trans (Cert.KernelIdeal.Hand.A_eq m c 2))
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v20_eq _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
